-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x7168 : Shape := ⟨3, ![8, 512, 7168]⟩
abbrev S8x2048x7168 : Shape := ⟨3, ![8, 2048, 7168]⟩
abbrev S8x2048 : Shape := ⟨2, ![8, 2048]⟩
abbrev S8x7168x2048 : Shape := ⟨3, ![8, 7168, 2048]⟩
abbrev S8x7168 : Shape := ⟨2, ![8, 7168]⟩
abbrev S_ : Shape := ⟨0, ![]⟩

class Facts : Prop where
  bcast_S_S8x512x7168 : S_.BroadcastsInDim S8x512x7168 (![] : Fin 0 → Fin S8x512x7168.rank)
  reducesTo_S8x512x7168_S_d0_1_2 : S8x512x7168.ReducesTo [0, 1, 2] S_
  h_S_ : 0 < S_.numel
  bcast_S_S8x2048x7168 : S_.BroadcastsInDim S8x2048x7168 (![] : Fin 0 → Fin S8x2048x7168.rank)
  reducesTo_S8x2048x7168_S_d0_1_2 : S8x2048x7168.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x7168x2048 : S_.BroadcastsInDim S8x7168x2048 (![] : Fin 0 → Fin S8x7168x2048.rank)
  reducesTo_S8x7168x2048_S_d0_1_2 : S8x7168x2048.ReducesTo [0, 1, 2] S_
  bcast_S_S8x7168 : S_.BroadcastsInDim S8x7168 (![] : Fin 0 → Fin S8x7168.rank)
  reducesTo_S8x7168_S_d0_1 : S8x7168.ReducesTo [0, 1] S_

variable [Facts]

def fn_part1 {F : FTy → Type} [FloatOps F] (main_arg4 : FVec F S8x2048 .f32) (main_arg5 : FVec F S8x7168x2048 .f32) (main_arg6 : FVec F S8x7168 .f32) (main_v13 : IVec S_ 1) (main_v16 : IVec S8x2048x7168 1) : IVec S_ 1 :=
  let main_c_5 : IVec S_ 1 := constantI S_ 1 1#1
  let main_v17 : IVec S_ 1 := (fun x v => Host.reduce IntOp.andi x v reducesTo_S8x2048x7168_S_d0_1_2 h_S_) main_v16 main_c_5
  let main_v18 : IVec S_ 1 := andi main_v13 main_v17
  let main_v19 : FVec F S8x2048 .f32 := Host.absf main_arg4
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  let main_v24 : FVec F S8x7168x2048 .f32 := Host.absf main_arg5
  let main_cst_8 : FVec F S_ .f32 := constant S_ .f32 0x7F800000#32
  let main_v25 : FVec F S8x7168x2048 .f32 := broadcastInDim S8x7168x2048 ![] bcast_S_S8x7168x2048 main_cst_8
  let main_v26 : IVec S8x7168x2048 1 := cmpf .olt main_v24 main_v25
  let main_c_9 : IVec S_ 1 := constantI S_ 1 1#1
  let main_v27 : IVec S_ 1 := (fun x v => Host.reduce IntOp.andi x v reducesTo_S8x7168x2048_S_d0_1_2 h_S_) main_v26 main_c_9
  let main_v28 : IVec S_ 1 := andi main_v23 main_v27
  let main_v29 : FVec F S8x7168 .f32 := Host.absf main_arg6
  let main_cst_10 : FVec F S_ .f32 := constant S_ .f32 0x7F800000#32
  let main_v30 : FVec F S8x7168 .f32 := broadcastInDim S8x7168 ![] bcast_S_S8x7168 main_cst_10
  let main_v31 : IVec S8x7168 1 := cmpf .olt main_v29 main_v30
  let main_c_11 : IVec S_ 1 := constantI S_ 1 1#1
  let main_v32 : IVec S_ 1 := (fun x v => Host.reduce IntOp.andi x v reducesTo_S8x7168_S_d0_1 h_S_) main_v31 main_c_11
  let main_v33 : IVec S_ 1 := andi main_v28 main_v32
  main_v33

def fn {F : FTy → Type} [FloatOps F] (main_arg0 : FVec F S8x512x7168 .f32) (main_arg1 : FVec F S8x2048x7168 .f32) (main_arg2 : FVec F S8x2048 .f32) (main_arg3 : FVec F S8x2048x7168 .f32) (main_arg4 : FVec F S8x2048 .f32) (main_arg5 : FVec F S8x7168x2048 .f32) (main_arg6 : FVec F S8x7168 .f32) : IVec S_ 1 :=
  let main_v0 : FVec F S8x512x7168 .f32 := Host.absf main_arg0
  let main_cst : FVec F S_ .f32 := constant S_ .f32 0x7F800000#32
  let main_v1 : FVec F S8x512x7168 .f32 := broadcastInDim S8x512x7168 ![] bcast_S_S8x512x7168 main_cst
  let main_v2 : IVec S8x512x7168 1 := cmpf .olt main_v0 main_v1
  let main_c : IVec S_ 1 := constantI S_ 1 1#1
  let main_v3 : IVec S_ 1 := (fun x v => Host.reduce IntOp.andi x v reducesTo_S8x512x7168_S_d0_1_2 h_S_) main_v2 main_c
  let main_v4 : FVec F S8x2048x7168 .f32 := Host.absf main_arg1
  let main_cst_0 : FVec F S_ .f32 := constant S_ .f32 0x7F800000#32
  let main_v5 : FVec F S8x2048x7168 .f32 := broadcastInDim S8x2048x7168 ![] bcast_S_S8x2048x7168 main_cst_0
  let main_v6 : IVec S8x2048x7168 1 := cmpf .olt main_v4 main_v5
  let main_c_1 : IVec S_ 1 := constantI S_ 1 1#1
  let main_v7 : IVec S_ 1 := (fun x v => Host.reduce IntOp.andi x v reducesTo_S8x2048x7168_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S8x2048x7168 .f32 := Host.absf main_arg3
  let main_cst_4 : FVec F S_ .f32 := constant S_ .f32 0x7F800000#32
  let main_v15 : FVec F S8x2048x7168 .f32 := broadcastInDim S8x2048x7168 ![] bcast_S_S8x2048x7168 main_cst_4
  let main_v16 : IVec S8x2048x7168 1 := cmpf .olt main_v14 main_v15
  fn_part1 (F := F) main_arg4 main_arg5 main_arg6 main_v13 main_v16
-- ==== Kernel.lean ====
abbrev S8x512x7168 : Shape := ⟨3, ![8, 512, 7168]⟩
abbrev S8x2048x7168 : Shape := ⟨3, ![8, 2048, 7168]⟩
abbrev S8x2048 : Shape := ⟨2, ![8, 2048]⟩
abbrev S8x7168x2048 : Shape := ⟨3, ![8, 7168, 2048]⟩
abbrev S8x7168 : Shape := ⟨2, ![8, 7168]⟩
abbrev S8x1x2048 : Shape := ⟨3, ![8, 1, 2048]⟩
abbrev S8x1x7168 : Shape := ⟨3, ![8, 1, 7168]⟩
abbrev S1x128x7168 : Shape := ⟨3, ![1, 128, 7168]⟩
abbrev S1x256x7168 : Shape := ⟨3, ![1, 256, 7168]⟩
abbrev S1x7168x256 : Shape := ⟨3, ![1, 7168, 256]⟩
abbrev S1x1x256 : Shape := ⟨3, ![1, 1, 256]⟩
abbrev S1x1x7168 : Shape := ⟨3, ![1, 1, 7168]⟩
abbrev S128x7168 : Shape := ⟨2, ![128, 7168]⟩
abbrev S256x7168 : Shape := ⟨2, ![256, 7168]⟩
abbrev S7168x256 : Shape := ⟨2, ![7168, 256]⟩
abbrev S128x256 : Shape := ⟨2, ![128, 256]⟩
abbrev S1x256 : Shape := ⟨2, ![1, 256]⟩
abbrev S1x7168 : Shape := ⟨2, ![1, 7168]⟩

abbrev nBuf : Space → Nat
  | .hbm => 15
  | .vmem => 16
  | .smem => 0
  | _ => 0

abbrev bufTy : (tb : Table) → Fin (tcTables nBuf tb) → BufTy
  | .hbm, ⟨0, _⟩ => ⟨S8x512x7168, .f32⟩
  | .hbm, ⟨1, _⟩ => ⟨S8x2048x7168, .f32⟩
  | .hbm, ⟨2, _⟩ => ⟨S8x2048, .f32⟩
  | .hbm, ⟨3, _⟩ => ⟨S8x2048x7168, .f32⟩
  | .hbm, ⟨4, _⟩ => ⟨S8x2048, .f32⟩
  | .hbm, ⟨5, _⟩ => ⟨S8x7168x2048, .f32⟩
  | .hbm, ⟨6, _⟩ => ⟨S8x7168, .f32⟩
  | .hbm, ⟨7, _⟩ => ⟨S8x512x7168, .bf16⟩
  | .hbm, ⟨8, _⟩ => ⟨S8x2048x7168, .bf16⟩
  | .hbm, ⟨9, _⟩ => ⟨S8x2048x7168, .bf16⟩
  | .hbm, ⟨10, _⟩ => ⟨S8x7168x2048, .bf16⟩
  | .hbm, ⟨11, _⟩ => ⟨S8x1x2048, .f32⟩
  | .hbm, ⟨12, _⟩ => ⟨S8x1x2048, .f32⟩
  | .hbm, ⟨13, _⟩ => ⟨S8x1x7168, .f32⟩
  | .hbm, ⟨14, _⟩ => ⟨S8x512x7168, .f32⟩
  | .local _ .vmem, ⟨0, _⟩ => ⟨S1x128x7168, .bf16⟩
  | .local _ .vmem, ⟨1, _⟩ => ⟨S1x128x7168, .bf16⟩
  | .local _ .vmem, ⟨2, _⟩ => ⟨S1x256x7168, .bf16⟩
  | .local _ .vmem, ⟨3, _⟩ => ⟨S1x256x7168, .bf16⟩
  | .local _ .vmem, ⟨4, _⟩ => ⟨S1x256x7168, .bf16⟩
  | .local _ .vmem, ⟨5, _⟩ => ⟨S1x256x7168, .bf16⟩
  | .local _ .vmem, ⟨6, _⟩ => ⟨S1x7168x256, .bf16⟩
  | .local _ .vmem, ⟨7, _⟩ => ⟨S1x7168x256, .bf16⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x7168, .f32⟩
  | .local _ .vmem, ⟨13, _⟩ => ⟨S1x1x7168, .f32⟩
  | .local _ .vmem, ⟨14, _⟩ => ⟨S1x128x7168, .f32⟩
  | .local _ .vmem, ⟨15, _⟩ => ⟨S1x128x7168, .f32⟩
  | _, _ => ⟨S8x512x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x7168x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x7168 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x128x7168 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  bitsLt_bf16_f32 : FTy.bits .bf16 < FTy.bits .f32
  shapeCasts_S8x2048_S8x1x2048 : S8x2048.ShapeCasts S8x1x2048
  shapeCasts_S8x7168_S8x1x7168 : S8x7168.ShapeCasts S8x1x7168
  inb_S1x128x7168_S1x128x7168_0_0_0 : ∀ a, (![0, 0, 0] : Fin 3 → Nat) a + S1x128x7168.size a ≤ S1x128x7168.size a
  h_S1x128x7168 : 0 < S1x128x7168.numel
  shapeCasts_S1x128x7168_S128x7168 : S1x128x7168.ShapeCasts S128x7168
  inb_S1x256x7168_S1x256x7168_0_0_0 : ∀ a, (![0, 0, 0] : Fin 3 → Nat) a + S1x256x7168.size a ≤ S1x256x7168.size a
  h_S1x256x7168 : 0 < S1x256x7168.numel
  shapeCasts_S1x256x7168_S256x7168 : S1x256x7168.ShapeCasts S256x7168
  inb_S1x7168x256_S1x7168x256_0_0_0 : ∀ a, (![0, 0, 0] : Fin 3 → Nat) a + S1x7168x256.size a ≤ S1x7168x256.size a
  h_S1x7168x256 : 0 < S1x7168x256.numel
  shapeCasts_S1x7168x256_S7168x256 : S1x7168x256.ShapeCasts S7168x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S128x256 : S1x256.Broadcasts S128x256
  shapeCasts_S128x7168_S1x128x7168 : S128x7168.ShapeCasts S1x128x7168
  inb_S1x1x7168_S1x1x7168_0_0_0 : ∀ a, (![0, 0, 0] : Fin 3 → Nat) a + S1x1x7168.size a ≤ S1x1x7168.size a
  h_S1x1x7168 : 0 < S1x1x7168.numel
  shapeCasts_S1x1x7168_S1x7168 : S1x1x7168.ShapeCasts S1x7168
  broadcasts_S1x7168_S128x7168 : S1x7168.Broadcasts S128x7168
  dot_S128x7168_S256x7168_S128x256_1_1_0_0_n_n_wf : DotDims.WF S128x7168 S256x7168 S128x256 [1] [1] [0] [0] [] []
  dot_S128x256_S7168x256_S128x7168_1_1_0_0_n_n_wf : DotDims.WF S128x256 S7168x256 S128x7168 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x7168.size a ≤ S8x512x7168.size a
  hwx0_0 : ∀ i : grid0.Coords, EltTy.bits .bf16 = 32 ∨ (Rect.block (s := S8x512x7168) S1x128x7168.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x7168.size a ≤ S8x2048x7168.size a
  hwx0_1 : ∀ i : grid0.Coords, EltTy.bits .bf16 = 32 ∨ (Rect.block (s := S8x2048x7168) S1x256x7168.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x7168.size a ≤ S8x2048x7168.size a
  hwx0_2 : ∀ i : grid0.Coords, EltTy.bits .bf16 = 32 ∨ (Rect.block (s := S8x2048x7168) S1x256x7168.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x7168x256.size a ≤ S8x7168x2048.size a
  hwx0_3 : ∀ i : grid0.Coords, EltTy.bits .bf16 = 32 ∨ (Rect.block (s := S8x7168x2048) S1x7168x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S8x1x2048.size a
  hwx0_4 : ∀ i : grid0.Coords, EltTy.bits .f32 = 32 ∨ (Rect.block (s := S8x1x2048) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S8x1x2048.size a
  hwx0_5 : ∀ i : grid0.Coords, EltTy.bits .f32 = 32 ∨ (Rect.block (s := S8x1x2048) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x7168.size a ≤ S8x1x7168.size a
  hwx0_6 : ∀ i : grid0.Coords, EltTy.bits .f32 = 32 ∨ (Rect.block (s := S8x1x7168) S1x1x7168.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x7168.size a ≤ S8x512x7168.size a
  hwx0_7 : ∀ i : grid0.Coords, EltTy.bits .f32 = 32 ∨ (Rect.block (s := S8x512x7168) S1x128x7168.size (cc0_transform_7 i) (hinb0_7 i)).WholeWords (EltTy.packing .f32)

variable [Facts₀]

def dot_S128x7168_S256x7168_S128x256_1_1_0_0_n_n : DotDims S128x7168 S256x7168 S128x256 where
  lhsContracting := [1]
  rhsContracting := [1]
  lhsNonContracting := [0]
  rhsNonContracting := [0]
  lhsBatch := []
  rhsBatch := []
  wf := dot_S128x7168_S256x7168_S128x256_1_1_0_0_n_n_wf
def dot_S128x256_S7168x256_S128x7168_1_1_0_0_n_n : DotDims S128x256 S7168x256 S128x7168 where
  lhsContracting := [1]
  rhsContracting := [1]
  lhsNonContracting := [0]
  rhsNonContracting := [0]
  lhsBatch := []
  rhsBatch := []
  wf := dot_S128x256_S7168x256_S128x7168_1_1_0_0_n_n_wf

abbrev win0_0 : Pipeline.Window sig grid0 :=
  Pipeline.Window.ofSpec (Memref.whole main_v0) S1x128x7168.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x7168.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x7168.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x7168x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1x7168.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128x7168.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x512x7168 : Shape := ⟨3, ![8, 512, 7168]⟩
abbrev S8x2048x7168 : Shape := ⟨3, ![8, 2048, 7168]⟩
abbrev S8x2048 : Shape := ⟨2, ![8, 2048]⟩
abbrev S8x7168x2048 : Shape := ⟨3, ![8, 7168, 2048]⟩
abbrev S8x7168 : Shape := ⟨2, ![8, 7168]⟩
abbrev S8x512x2048 : Shape := ⟨3, ![8, 512, 2048]⟩
abbrev S8x1x2048 : Shape := ⟨3, ![8, 1, 2048]⟩
abbrev S_ : Shape := ⟨0, ![]⟩
abbrev S8x1x7168 : Shape := ⟨3, ![8, 1, 7168]⟩

abbrev nBuf : Space → Nat
  | .hbm => 29
  | .vmem => 0
  | .smem => 0
  | _ => 0

abbrev bufTy : (tb : Table) → Fin (tcTables nBuf tb) → BufTy
  | .hbm, ⟨0, _⟩ => ⟨S8x512x7168, .f32⟩
  | .hbm, ⟨1, _⟩ => ⟨S8x2048x7168, .f32⟩
  | .hbm, ⟨2, _⟩ => ⟨S8x2048, .f32⟩
  | .hbm, ⟨3, _⟩ => ⟨S8x2048x7168, .f32⟩
  | .hbm, ⟨4, _⟩ => ⟨S8x2048, .f32⟩
  | .hbm, ⟨5, _⟩ => ⟨S8x7168x2048, .f32⟩
  | .hbm, ⟨6, _⟩ => ⟨S8x7168, .f32⟩
  | .hbm, ⟨7, _⟩ => ⟨S8x512x2048, .f32⟩
  | .hbm, ⟨8, _⟩ => ⟨S8x1x2048, .f32⟩
  | .hbm, ⟨9, _⟩ => ⟨S8x512x2048, .f32⟩
  | .hbm, ⟨10, _⟩ => ⟨S8x512x2048, .f32⟩
  | .hbm, ⟨11, _⟩ => ⟨S8x512x2048, .f32⟩
  | .hbm, ⟨12, _⟩ => ⟨S8x1x2048, .f32⟩
  | .hbm, ⟨13, _⟩ => ⟨S8x512x2048, .f32⟩
  | .hbm, ⟨14, _⟩ => ⟨S8x512x2048, .f32⟩
  | .hbm, ⟨15, _⟩ => ⟨S8x512x2048, .f32⟩
  | .hbm, ⟨16, _⟩ => ⟨S8x512x2048, .f32⟩
  | .hbm, ⟨17, _⟩ => ⟨S_, .f32⟩
  | .hbm, ⟨18, _⟩ => ⟨S8x512x2048, .f32⟩
  | .hbm, ⟨19, _⟩ => ⟨S8x512x2048, .f32⟩
  | .hbm, ⟨20, _⟩ => ⟨S_, .f32⟩
  | .hbm, ⟨21, _⟩ => ⟨S8x512x2048, .f32⟩
  | .hbm, ⟨22, _⟩ => ⟨S8x512x2048, .f32⟩
  | .hbm, ⟨23, _⟩ => ⟨S8x512x2048, .f32⟩
  | .hbm, ⟨24, _⟩ => ⟨S8x512x2048, .f32⟩
  | .hbm, ⟨25, _⟩ => ⟨S8x512x7168, .f32⟩
  | .hbm, ⟨26, _⟩ => ⟨S8x1x7168, .f32⟩
  | .hbm, ⟨27, _⟩ => ⟨S8x512x7168, .f32⟩
  | .hbm, ⟨28, _⟩ => ⟨S8x512x7168, .f32⟩
  | _, _ => ⟨S8x512x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  bcast_S8x2048_S8x1x2048_0_2 : S8x2048.BroadcastsInDim S8x1x2048 (![0, 2] : Fin 2 → Fin S8x1x2048.rank)
  bcast_S8x1x2048_S8x512x2048_0_1_2 : S8x1x2048.BroadcastsInDim S8x512x2048 (![0, 1, 2] : Fin 3 → Fin S8x512x2048.rank)
  bcast_S_S8x512x2048 : S_.BroadcastsInDim S8x512x2048 (![] : Fin 0 → Fin S8x512x2048.rank)
  bcast_S8x7168_S8x1x7168_0_2 : S8x7168.BroadcastsInDim S8x1x7168 (![0, 2] : Fin 2 → Fin S8x1x7168.rank)
  bcast_S8x1x7168_S8x512x7168_0_1_2 : S8x1x7168.BroadcastsInDim S8x512x7168 (![0, 1, 2] : Fin 3 → Fin S8x512x7168.rank)
  dot_S8x512x7168_S8x2048x7168_S8x512x2048_2_2_1_1_0_0_wf : DotDims.WF S8x512x7168 S8x2048x7168 S8x512x2048 [2] [2] [1] [1] [0] [0]
  dot_S8x512x2048_S8x7168x2048_S8x512x7168_2_2_1_1_0_0_wf : DotDims.WF S8x512x2048 S8x7168x2048 S8x512x7168 [2] [2] [1] [1] [0] [0]

variable [Facts₀]

def dot_S8x512x7168_S8x2048x7168_S8x512x2048_2_2_1_1_0_0 : DotDims S8x512x7168 S8x2048x7168 S8x512x2048 where
  lhsContracting := [2]
  rhsContracting := [2]
  lhsNonContracting := [1]
  rhsNonContracting := [1]
  lhsBatch := [0]
  rhsBatch := [0]
  wf := dot_S8x512x7168_S8x2048x7168_S8x512x2048_2_2_1_1_0_0_wf
def dot_S8x512x2048_S8x7168x2048_S8x512x7168_2_2_1_1_0_0 : DotDims S8x512x2048 S8x7168x2048 S8x512x7168 where
  lhsContracting := [2]
  rhsContracting := [2]
  lhsNonContracting := [1]
  rhsNonContracting := [1]
  lhsBatch := [0]
  rhsBatch := [0]
  wf := dot_S8x512x2048_S8x7168x2048_S8x512x7168_2_2_1_1_0_0_wf

class Facts : Prop extends Facts₀ where

variable [Facts]
-- ==== Proof.Spec.lean ====
/-
  The function both programs compute, and the one law that joins them.

  Eight experts; expert `e` owns a token block `X e` (512 rows of 7168 features), two up-projections `W1 e`, `W3 e`
  (2048 rows of 7168 features, biases `B1 e`, `B3 e`) and a down-projection `W2 e` (7168 rows of 2048 features, bias
  `B2 e`). For token `t` and hidden unit `f` the two pre-activations are the dot products of the token's row with the
  weights' rows `f`, plus the biases; the hidden value is `silu(h1) · h3 = (h1 · logistic h1) · h3`; the output at feature
  `d` is the dot product of the hidden row with row `d` of `W2 e`, plus `B2 e d`. All of it on the extended reals, where
  `+` and `·` are commutative and associative and nothing else is needed: the only law used is that a sum over 2048 hidden
  units is the sum, over 8 consecutive blocks, of the sums over each block's 256 units.
-/
import Idealize.ShloMosaic.PureOps.Ideal
import Idealize.ShloMosaic.Lib.ValueIdx

noncomputable section

namespace Cert.GatedFfn

open Idealize.ShloMosaic Idealize.ShloMosaic.ValueIdx
open scoped BigOperators

/-- A pre-activation: token `t` of expert `e` against row `f` of the expert's weight, plus the bias. -/
def pre (X : (⟨3, ![8, 512, 7168]⟩ : Shape).Idx → EReal) (W : (⟨3, ![8, 2048, 7168]⟩ : Shape).Idx → EReal)
    (B : (⟨2, ![8, 2048]⟩ : Shape).Idx → EReal) (e : Fin 8) (t : Fin 512) (f : Fin 2048) : EReal :=
  (∑ k : Fin 7168, X (ix3 e t k) * W (ix3 e f k)) + B (ix2 e f)

/-- The gate: `silu(h1) · h3` with `silu(h) = h · logistic h`. -/
def gate (h1 h3 : EReal) : EReal := (h1 * Ideal.logistic h1) * h3

/-- The hidden value of token `t` of expert `e` at unit `f`. -/
def hidden (X : (⟨3, ![8, 512, 7168]⟩ : Shape).Idx → EReal) (W1 : (⟨3, ![8, 2048, 7168]⟩ : Shape).Idx → EReal)
    (B1 : (⟨2, ![8, 2048]⟩ : Shape).Idx → EReal) (W3 : (⟨3, ![8, 2048, 7168]⟩ : Shape).Idx → EReal)
    (B3 : (⟨2, ![8, 2048]⟩ : Shape).Idx → EReal) (e : Fin 8) (t : Fin 512) (f : Fin 2048) : EReal :=
  gate (pre X W1 B1 e t f) (pre X W3 B3 e t f)

/-- The output: the hidden row against row `d` of the down-projection, plus its bias. -/
def out (X : (⟨3, ![8, 512, 7168]⟩ : Shape).Idx → EReal) (W1 : (⟨3, ![8, 2048, 7168]⟩ : Shape).Idx → EReal)
    (B1 : (⟨2, ![8, 2048]⟩ : Shape).Idx → EReal) (W3 : (⟨3, ![8, 2048, 7168]⟩ : Shape).Idx → EReal)
    (B3 : (⟨2, ![8, 2048]⟩ : Shape).Idx → EReal) (W2 : (⟨3, ![8, 7168, 2048]⟩ : Shape).Idx → EReal)
    (B2 : (⟨2, ![8, 7168]⟩ : Shape).Idx → EReal) : (⟨3, ![8, 512, 7168]⟩ : Shape).Idx → EReal := fun i =>
  (∑ f : Fin 2048, hidden X W1 B1 W3 B3 (i 0) (i 1) f * W2 (ix3 (i 0) (i 2) f)) + B2 (ix2 (i 0) (i 2))

/-- A sum over 2048 terms is the sum over 8 consecutive blocks of the sums over each block's 256 terms: in any
    commutative monoid, by the bijection `(s, f) ↦ 256 s + f`. -/
theorem sum_blocks {M : Type*} [AddCommMonoid M] (a : ℕ → M) :
    ∑ F : Fin 2048, a F.val = ∑ s : Fin 8, ∑ f : Fin 256, a (256 * s.val + f.val) := by
  have h : ∑ F : Fin (8 * 256), a F.val = ∑ s : Fin 8, ∑ f : Fin 256, a (256 * s.val + f.val) := by
    rw [← Equiv.sum_comp finProdFinEquiv (fun F : Fin (8 * 256) => a F.val), Fintype.sum_prod_type]
    refine Finset.sum_congr rfl fun s _ => Finset.sum_congr rfl fun f _ => ?_
    show a (f.val + 256 * s.val) = _
    rw [Nat.add_comm]
  exact h

end Cert.GatedFfn

end
-- ==== Proof.Coords.lean ====
/-
  The same function with every array read at natural-number coordinates.

  A grid point of the kernel names its blocks by quotients and remainders of the point's number, so the kernel's side is
  arithmetic on naturals. `rd3 A a b c` reads a rank-3 array at natural coordinates (zero outside the array, which is
  never reached); the pre-activation, the hidden value and the output are restated over it, and the output is the same
  function as `out`.
-/
import proofs.«104300_j73126113181994_2_alg».proof.Proof.Spec

noncomputable section

namespace Cert.GatedFfn

open Idealize.ShloMosaic Idealize.ShloMosaic.ValueIdx
open scoped BigOperators

/-- A rank-3 array read at natural coordinates; zero outside the array. -/
def rd3 {n0 n1 n2 : ℕ} (A : (⟨3, ![n0, n1, n2]⟩ : Shape).Idx → EReal) (a b c : ℕ) : EReal :=
  if h : a < n0 ∧ b < n1 ∧ c < n2 then A (ix3 ⟨a, h.1⟩ ⟨b, h.2.1⟩ ⟨c, h.2.2⟩) else 0

/-- A rank-2 array read at natural coordinates; zero outside the array. -/
def rd2 {n0 n1 : ℕ} (A : (⟨2, ![n0, n1]⟩ : Shape).Idx → EReal) (a b : ℕ) : EReal :=
  if h : a < n0 ∧ b < n1 then A (ix2 ⟨a, h.1⟩ ⟨b, h.2⟩) else 0

theorem rd3_fin {n0 n1 n2 : ℕ} (A : (⟨3, ![n0, n1, n2]⟩ : Shape).Idx → EReal) (a : Fin n0) (b : Fin n1) (c : Fin n2) :
    rd3 A a.val b.val c.val = A (ix3 a b c) := dif_pos ⟨a.isLt, b.isLt, c.isLt⟩

theorem rd2_fin {n0 n1 : ℕ} (A : (⟨2, ![n0, n1]⟩ : Shape).Idx → EReal) (a : Fin n0) (b : Fin n1) :
    rd2 A a.val b.val = A (ix2 a b) := dif_pos ⟨a.isLt, b.isLt⟩

theorem rd3_of_lt {n0 n1 n2 : ℕ} (A : (⟨3, ![n0, n1, n2]⟩ : Shape).Idx → EReal) {a b c : ℕ} (ha : a < n0) (hb : b < n1)
    (hc : c < n2) : A (ix3 (⟨a, ha⟩ : Fin n0) (⟨b, hb⟩ : Fin n1) (⟨c, hc⟩ : Fin n2)) = rd3 A a b c :=
  (show rd3 A a b c = A _ from dif_pos ⟨ha, hb, hc⟩).symm

theorem rd2_of_lt {n0 n1 : ℕ} (A : (⟨2, ![n0, n1]⟩ : Shape).Idx → EReal) {a b : ℕ} (ha : a < n0) (hb : b < n1) :
    A (ix2 (⟨a, ha⟩ : Fin n0) (⟨b, hb⟩ : Fin n1)) = rd2 A a b :=
  (show rd2 A a b = A _ from dif_pos ⟨ha, hb⟩).symm

/-- The pre-activation at natural coordinates. -/
def preN (X : (⟨3, ![8, 512, 7168]⟩ : Shape).Idx → EReal) (W : (⟨3, ![8, 2048, 7168]⟩ : Shape).Idx → EReal)
    (B : (⟨2, ![8, 2048]⟩ : Shape).Idx → EReal) (e t f : ℕ) : EReal :=
  (∑ k : Fin 7168, rd3 X e t k.val * rd3 W e f k.val) + rd2 B e f

/-- The hidden value at natural coordinates. -/
def hiddenN (X : (⟨3, ![8, 512, 7168]⟩ : Shape).Idx → EReal) (W1 : (⟨3, ![8, 2048, 7168]⟩ : Shape).Idx → EReal)
    (B1 : (⟨2, ![8, 2048]⟩ : Shape).Idx → EReal) (W3 : (⟨3, ![8, 2048, 7168]⟩ : Shape).Idx → EReal)
    (B3 : (⟨2, ![8, 2048]⟩ : Shape).Idx → EReal) (e t f : ℕ) : EReal :=
  gate (preN X W1 B1 e t f) (preN X W3 B3 e t f)

theorem preN_fin (X : (⟨3, ![8, 512, 7168]⟩ : Shape).Idx → EReal) (W : (⟨3, ![8, 2048, 7168]⟩ : Shape).Idx → EReal)
    (B : (⟨2, ![8, 2048]⟩ : Shape).Idx → EReal) (e : Fin 8) (t : Fin 512) (f : Fin 2048) :
    preN X W B e.val t.val f.val = pre X W B e t f := by
  unfold preN pre
  simp only [rd3_fin, rd2_fin]

/-- The output is the sum over the 2048 hidden units, read at natural coordinates, plus the bias. -/
theorem out_nat (X : (⟨3, ![8, 512, 7168]⟩ : Shape).Idx → EReal) (W1 : (⟨3, ![8, 2048, 7168]⟩ : Shape).Idx → EReal)
    (B1 : (⟨2, ![8, 2048]⟩ : Shape).Idx → EReal) (W3 : (⟨3, ![8, 2048, 7168]⟩ : Shape).Idx → EReal)
    (B3 : (⟨2, ![8, 2048]⟩ : Shape).Idx → EReal) (W2 : (⟨3, ![8, 7168, 2048]⟩ : Shape).Idx → EReal)
    (B2 : (⟨2, ![8, 7168]⟩ : Shape).Idx → EReal) (e : Fin 8) (t : Fin 512) (d : Fin 7168) :
    out X W1 B1 W3 B3 W2 B2 (ix3 e t d)
      = (∑ F : Fin 2048, hiddenN X W1 B1 W3 B3 e.val t.val F.val * rd3 W2 e.val d.val F.val) + rd2 B2 e.val d.val := by
  show (∑ f : Fin 2048, hidden X W1 B1 W3 B3 e t f * W2 (ix3 e d f)) + B2 (ix2 e d) = _
  simp only [hidden, hiddenN, preN_fin, rd3_fin, rd2_fin]

end Cert.GatedFfn

end
-- ==== Proof.KernelBlock.lean ====
/-
  One grid point's arithmetic, read at an index.

  At a grid point the body holds a block of 128 token rows `x0`, blocks of 256 rows of the two up-projections `x1`, `x2`
  with their 256 biases `x4`, `x5`, and the matching 256 columns of the down-projection `x3` (all 7168 of its rows). It
  forms the 128 × 256 block of hidden values and adds, to what the output block held before, the product of that block
  with the down-projection's columns: at row `r` and feature `d` the sum over the block's 256 hidden units. The output
  block starts at zero, and the last point of a run also adds the output bias.
-/
import proofs.«104300_j73126113181994_2_alg».proof.Proof.Gen.KernelIdeal.Skeleton
import proofs.«104300_j73126113181994_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.GatedFfn.Block

open Cert.KernelIdeal Cert.KernelIdeal.Gen Idealize.ShloMosaic Idealize.ShloMosaic.ValueIdx
open scoped BigOperators

/-! ## The two products' index maps: both contract the last axis of both operands -/

abbrev Dup := dot_S128x7168_S256x7168_S128x256_1_1_0_0_n_n
abbrev Ddown := dot_S128x256_S7168x256_S128x7168_1_1_0_0_n_n

theorem up_lhs0 (i : S128x256.Idx) (q : Dup.contr.Idx) : (Dup.lhsIdx i q 0).val = (i 0).val := by
  unfold DotDims.lhsIdx
  rw [dif_neg (show ¬(0 : Fin S128x7168.rank) ∈ Dup.lhsBatch by decide), dif_pos (show (0 : Fin S128x7168.rank) ∈ Dup.lhsNonContracting by decide)]
  rfl
theorem up_lhs1 (i : S128x256.Idx) (q : Dup.contr.Idx) : (Dup.lhsIdx i q 1).val = (q ⟨0, by decide⟩).val :=
  Dup.lhsIdx_val_of_single rfl i q
theorem up_rhs0 (i : S128x256.Idx) (q : Dup.contr.Idx) : (Dup.rhsIdx i q 0).val = (i 1).val := by
  unfold DotDims.rhsIdx
  rw [dif_neg (show ¬(0 : Fin S256x7168.rank) ∈ Dup.rhsBatch by decide), dif_pos (show (0 : Fin S256x7168.rank) ∈ Dup.rhsNonContracting by decide)]
  rfl
theorem up_rhs1 (i : S128x256.Idx) (q : Dup.contr.Idx) : (Dup.rhsIdx i q 1).val = (q ⟨0, by decide⟩).val :=
  Dup.rhsIdx_val_of_single rfl i q

theorem down_lhs0 (i : S128x7168.Idx) (q : Ddown.contr.Idx) : (Ddown.lhsIdx i q 0).val = (i 0).val := by
  unfold DotDims.lhsIdx
  rw [dif_neg (show ¬(0 : Fin S128x256.rank) ∈ Ddown.lhsBatch by decide), dif_pos (show (0 : Fin S128x256.rank) ∈ Ddown.lhsNonContracting by decide)]
  rfl
theorem down_lhs1 (i : S128x7168.Idx) (q : Ddown.contr.Idx) : (Ddown.lhsIdx i q 1).val = (q ⟨0, by decide⟩).val :=
  Ddown.lhsIdx_val_of_single rfl i q
theorem down_rhs0 (i : S128x7168.Idx) (q : Ddown.contr.Idx) : (Ddown.rhsIdx i q 0).val = (i 1).val := by
  unfold DotDims.rhsIdx
  rw [dif_neg (show ¬(0 : Fin S7168x256.rank) ∈ Ddown.rhsBatch by decide), dif_pos (show (0 : Fin S7168x256.rank) ∈ Ddown.rhsNonContracting by decide)]
  rfl
theorem down_rhs1 (i : S128x7168.Idx) (q : Ddown.contr.Idx) : (Ddown.rhsIdx i q 1).val = (q ⟨0, by decide⟩).val :=
  Ddown.rhsIdx_val_of_single rfl i q

/-- An up-projection's product into the zero accumulator, at row `r` and hidden unit `f`: the dot product of the
    token's row with the weight's row. -/
theorem up_apply (l : FVec Ideal S128x7168 .bf16) (w : FVec Ideal S256x7168 .bf16) (r : Fin 128) (f : Fin 256) :
    matmul Dup none l w (constant S128x256 .f32 0x00000000#32) (ix2 r f) = ∑ k : Fin 7168, l (ix2 r k) * w (ix2 f k) := by
  simp only [matmul]
  rw [Ideal.matmul_constant_zero_apply, ← Equiv.sum_comp (contrEquiv1 Dup 7168 rfl rfl).symm]
  refine Finset.sum_congr rfl fun k _ => ?_
  have hk := contrEquiv1_symm_val Dup 7168 rfl rfl k
  have el : Dup.lhsIdx (ix2 r f) ((contrEquiv1 Dup 7168 rfl rfl).symm k) = ix2 r k := funext fun a => Fin.ext (by
    match a with
    | ⟨0, _⟩ => exact up_lhs0 _ _
    | ⟨1, _⟩ => exact (up_lhs1 _ _).trans hk)
  have er : Dup.rhsIdx (ix2 r f) ((contrEquiv1 Dup 7168 rfl rfl).symm k) = ix2 f k := funext fun a => Fin.ext (by
    match a with
    | ⟨0, _⟩ => exact up_rhs0 _ _
    | ⟨1, _⟩ => exact (up_rhs1 _ _).trans hk)
  rw [el, er]

/-- The down-projection's product into the zero accumulator, at row `r` and feature `d`: the dot product of the hidden
    row with the weight's row `d` over the block's 256 units. -/
theorem down_apply (g : FVec Ideal S128x256 .bf16) (w : FVec Ideal S7168x256 .bf16) (r : Fin 128) (d : Fin 7168) :
    matmul Ddown none g w (constant S128x7168 .f32 0x00000000#32) (ix2 r d) = ∑ f : Fin 256, g (ix2 r f) * w (ix2 d f) := by
  simp only [matmul]
  rw [Ideal.matmul_constant_zero_apply, ← Equiv.sum_comp (contrEquiv1 Ddown 256 rfl rfl).symm]
  refine Finset.sum_congr rfl fun k _ => ?_
  have hk := contrEquiv1_symm_val Ddown 256 rfl rfl k
  have el : Ddown.lhsIdx (ix2 r d) ((contrEquiv1 Ddown 256 rfl rfl).symm k) = ix2 r k := funext fun a => Fin.ext (by
    match a with
    | ⟨0, _⟩ => exact down_lhs0 _ _
    | ⟨1, _⟩ => exact (down_lhs1 _ _).trans hk)
  have er : Ddown.rhsIdx (ix2 r d) ((contrEquiv1 Ddown 256 rfl rfl).symm k) = ix2 d k := funext fun a => Fin.ext (by
    match a with
    | ⟨0, _⟩ => exact down_rhs0 _ _
    | ⟨1, _⟩ => exact (down_rhs1 _ _).trans hk)
  rw [el, er]

/-! ## The block's values -/

/-- A pre-activation inside the block: token row `r` against weight row `f`, plus the block's bias at `f`. -/
def preBlk (x0 : FVec Ideal S1x128x7168 .bf16) (w : FVec Ideal S1x256x7168 .bf16) (b : FVec Ideal S1x1x256 .f32)
    (r : Fin 128) (f : Fin 256) : EReal :=
  (∑ k : Fin 7168, x0 (ix3 0 r k) * w (ix3 0 f k)) + b (ix3 0 0 f)

/-- What one grid point adds to the output block at row `r`, feature `d`. -/
def blkTerm (x0 : FVec Ideal S1x128x7168 .bf16) (x1 x2 : FVec Ideal S1x256x7168 .bf16) (x3 : FVec Ideal S1x7168x256 .bf16)
    (x4 x5 : FVec Ideal S1x1x256 .f32) (r : Fin 128) (d : Fin 7168) : EReal :=
  ∑ f : Fin 256, gate (preBlk x0 x1 x4 r f) (preBlk x0 x2 x5 r f) * x3 (ix3 0 d f)

/-- The logistic function acts element by element. -/
theorem logistic_apply {s : Shape} {φ : FTy} (a : FVec Ideal s φ) (i : s.Idx) : logistic a i = Ideal.logistic (a i) := rfl

/-- A biased up-projection at row `r`, unit `f`. -/
theorem biased_apply (x0 : FVec Ideal S1x128x7168 .bf16) (w : FVec Ideal S1x256x7168 .bf16) (b : FVec Ideal S1x1x256 .f32)
    (r : Fin 128) (f : Fin 256) :
    addf (matmul Dup none (shapeCast S128x7168 x0 shapeCasts_S1x128x7168_S128x7168) (shapeCast S256x7168 w shapeCasts_S1x256x7168_S256x7168)
        (constant S128x256 .f32 0x00000000#32))
      (broadcastTo S128x256 (shapeCast S1x256 b shapeCasts_S1x1x256_S1x256) broadcasts_S1x256_S128x256) (ix2 r f)
      = preBlk x0 w b r f := by
  rw [addf_apply, up_apply, broadcastTo_1b_ab_apply, shapeCast_1ab_ab_apply]
  unfold preBlk
  simp only [shapeCast_1ab_ab_apply]

/-- The accumulating payload at row `r`, feature `d`: what the block held, plus the point's term. -/
theorem pay4_apply (x0 : FVec Ideal S1x128x7168 .bf16) (x1 x2 : FVec Ideal S1x256x7168 .bf16) (x3 : FVec Ideal S1x7168x256 .bf16)
    (x4 x5 : FVec Ideal S1x1x256 .f32) (acc : FVec Ideal S1x128x7168 .f32) (r : Fin 128) (d : Fin 7168) :
    k0_pay4 (F := Ideal) x0 x1 x2 x3 x4 x5 acc (ix2 r d) = acc (ix3 0 r d) + blkTerm x0 x1 x2 x3 x4 x5 r d := by
  unfold k0_pay4
  rw [addf_apply, shapeCast_1ab_ab_apply, down_apply]
  unfold blkTerm
  refine congrArg (acc (ix3 0 r d) + ·) (Finset.sum_congr rfl fun f _ => ?_)
  rw [truncf_apply, mulf_apply, mulf_apply, logistic_apply, shapeCast_1ab_ab_apply, biased_apply, biased_apply]
  rfl

/-- The stored payload is the accumulated block with a leading unit axis. -/
theorem pay1_apply (v : FVec Ideal S128x7168 .f32) (u : Fin 1) (r : Fin 128) (d : Fin 7168) :
    k0_pay1 (F := Ideal) v (ix3 u r d) = v (ix2 r d) := by
  unfold k0_pay1
  exact shapeCast_ab_1ab_apply v _ u r d

/-- The zero block a run starts from. -/
theorem pay3_apply (y : S1x128x7168.Idx) : k0_pay3 (F := Ideal) y = 0 := by
  obtain ⟨u, r, d, rfl⟩ : ∃ (u : Fin 1) (r : Fin 128) (d : Fin 7168), y = ix3 u r d := ⟨y 0, y 1, y 2, eq_ix3 y⟩
  unfold k0_pay3
  refine (shapeCast_ab_1ab_apply _ _ u r d).trans ?_
  exact Ideal.ofBits_zero_f32

/-- The last point's second store: the block plus the output bias's row. -/
theorem pay2_apply (v : FVec Ideal S1x128x7168 .f32) (b : FVec Ideal S1x1x7168 .f32) (u : Fin 1) (r : Fin 128) (d : Fin 7168) :
    k0_pay2 (F := Ideal) v b (ix3 u r d) = v (ix3 0 r d) + b (ix3 0 0 d) := by
  unfold k0_pay2
  rw [shapeCast_ab_1ab_apply, addf_apply, shapeCast_1ab_ab_apply, broadcastTo_1b_ab_apply, shapeCast_1ab_ab_apply]

end Cert.GatedFfn.Block

end
-- ==== Proof.LibMiddleUnitAxis.lean ====
/-
  A unit axis in the middle of a rank-3 shape, read at an index.
-/
import Idealize.ShloMosaic.Lib.ValueIdx
import Idealize.ShloMosaic.Lib.Pipeline.Value

namespace Idealize.ShloMosaic.ValueIdx

open Idealize.ShloMosaic

/-- An `[a, b]` array cast to `[a, 1, b]` reads, at `(i, u, j)`, the operand at `(i, j)`, whatever the unit coordinate
    `u`: both indices have the row-major position `i · b + j`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.ValueIdx
-- ==== Proof.Points.lean ====
/-
  What a grid point's blocks hold, in terms of the arguments.

  The grid has 8 · 4 · 8 = 256 points; point `n` works on expert `n / 32`, token block `(n / 8) % 4` (128 rows) and hidden
  block `n % 8` (256 units). The arrays the region finds are the arguments themselves: the four format changes are the
  identity on the extended reals, and the three reshapes only insert a unit axis. So every block element is an argument
  element at coordinates computed from the point's number.
-/
import proofs.«104300_j73126113181994_2_alg».proof.Proof.Gen.KernelIdeal.Frame
import proofs.«104300_j73126113181994_2_alg».proof.Proof.Coords
import proofs.«104300_j73126113181994_2_alg».proof.Proof.KernelBlock
import proofs.«104300_j73126113181994_2_alg».proof.Proof.LibMiddleUnitAxis
import Idealize.ShloMosaic.Lib.StableHlo.Run
import Idealize.ShloMosaic.Lib.Pipeline.Value

noncomputable section

namespace Cert.GatedFfn.Points

open Cert.KernelIdeal Cert.KernelIdeal.Gen Idealize.ShloMosaic Idealize.ShloMosaic.TcCoe Idealize.ShloMosaic.ValueIdx
open Idealize.SL.Sem Cert.GatedFfn Cert.GatedFfn.Block
open scoped BigOperators

variable (m : (ℓ : Loc nD τ sig) → Buf (Elt Ideal) ℓ)

/-- The argument arrays on core `c`, as functions into the extended reals. -/
abbrev aX (c : Dev nD) : S8x512x7168.Idx → EReal := m ((c : Thread nD τ).loc main_arg0)
abbrev aW1 (c : Dev nD) : S8x2048x7168.Idx → EReal := m ((c : Thread nD τ).loc main_arg1)
abbrev aB1 (c : Dev nD) : S8x2048.Idx → EReal := m ((c : Thread nD τ).loc main_arg2)
abbrev aW3 (c : Dev nD) : S8x2048x7168.Idx → EReal := m ((c : Thread nD τ).loc main_arg3)
abbrev aB3 (c : Dev nD) : S8x2048.Idx → EReal := m ((c : Thread nD τ).loc main_arg4)
abbrev aW2 (c : Dev nD) : S8x7168x2048.Idx → EReal := m ((c : Thread nD τ).loc main_arg5)
abbrev aB2 (c : Dev nD) : S8x7168.Idx → EReal := m ((c : Thread nD τ).loc main_arg6)

/-! ## The arrays the region finds -/

theorem V_tokens (c : Dev nD) : (V m c main_v0 : S8x512x7168.Idx → EReal) = aX m c := by
  dsimp only [V, hostOps0]; after_results; rfl
theorem V_up1 (c : Dev nD) : (V m c main_v1 : S8x2048x7168.Idx → EReal) = aW1 m c := by
  dsimp only [V, hostOps0]; after_results; rfl
theorem V_up3 (c : Dev nD) : (V m c main_v2 : S8x2048x7168.Idx → EReal) = aW3 m c := by
  dsimp only [V, hostOps0]; after_results; rfl
theorem V_down (c : Dev nD) : (V m c main_v3 : S8x7168x2048.Idx → EReal) = aW2 m c := by
  dsimp only [V, hostOps0]; after_results; rfl
theorem V_bias1 (c : Dev nD) : (V m c main_v4 : S8x1x2048.Idx → EReal) = shapeCast S8x1x2048 (aB1 m c) shapeCasts_S8x2048_S8x1x2048 := by
  dsimp only [V, hostOps0]; after_results; rfl
theorem V_bias3 (c : Dev nD) : (V m c main_v5 : S8x1x2048.Idx → EReal) = shapeCast S8x1x2048 (aB3 m c) shapeCasts_S8x2048_S8x1x2048 := by
  dsimp only [V, hostOps0]; after_results; rfl
theorem V_bias2 (c : Dev nD) : (V m c main_v6 : S8x1x7168.Idx → EReal) = shapeCast S8x1x7168 (aB2 m c) shapeCasts_S8x7168_S8x1x7168 := by
  dsimp only [V, hostOps0]; after_results; rfl

/-! ## The printed index maps, decided over the grid -/

theorem idx_tokens : ∀ t : Fin cfg0.N, win0_0.index t (0 : Fin 3) = t.val / 32 ∧ win0_0.index t (1 : Fin 3) = t.val / 8 % 4
    ∧ win0_0.index t (2 : Fin 3) = 0 :=
  (by decide +kernel : ∀ t : Fin grid0.N, _)
theorem idx_up1 : ∀ t : Fin cfg0.N, win0_1.index t (0 : Fin 3) = t.val / 32 ∧ win0_1.index t (1 : Fin 3) = t.val % 8
    ∧ win0_1.index t (2 : Fin 3) = 0 :=
  (by decide +kernel : ∀ t : Fin grid0.N, _)
theorem idx_up3 : ∀ t : Fin cfg0.N, win0_2.index t (0 : Fin 3) = t.val / 32 ∧ win0_2.index t (1 : Fin 3) = t.val % 8
    ∧ win0_2.index t (2 : Fin 3) = 0 :=
  (by decide +kernel : ∀ t : Fin grid0.N, _)
theorem idx_down : ∀ t : Fin cfg0.N, win0_3.index t (0 : Fin 3) = t.val / 32 ∧ win0_3.index t (1 : Fin 3) = 0
    ∧ win0_3.index t (2 : Fin 3) = t.val % 8 :=
  (by decide +kernel : ∀ t : Fin grid0.N, _)
theorem idx_bias1 : ∀ t : Fin cfg0.N, win0_4.index t (0 : Fin 3) = t.val / 32 ∧ win0_4.index t (1 : Fin 3) = 0
    ∧ win0_4.index t (2 : Fin 3) = t.val % 8 :=
  (by decide +kernel : ∀ t : Fin grid0.N, _)
theorem idx_bias3 : ∀ t : Fin cfg0.N, win0_5.index t (0 : Fin 3) = t.val / 32 ∧ win0_5.index t (1 : Fin 3) = 0
    ∧ win0_5.index t (2 : Fin 3) = t.val % 8 :=
  (by decide +kernel : ∀ t : Fin grid0.N, _)
theorem idx_bias2 : ∀ t : Fin cfg0.N, win0_6.index t (0 : Fin 3) = t.val / 32 ∧ win0_6.index t (1 : Fin 3) = 0
    ∧ win0_6.index t (2 : Fin 3) = 0 :=
  (by decide +kernel : ∀ t : Fin grid0.N, _)

/-! ## A point's blocks, element by element -/

/-- The token block of point `t`: rows `128 · ((t / 8) % 4) …` of expert `t / 32`. -/
theorem tokens_blk (c : Dev nD) (t : Fin cfg0.N) (u : Fin 1) (r : Fin 128) (k : Fin 7168) :
    iblk m c 0 t (ix3 u r k) = rd3 (aX m c) (t.val / 32) (128 * (t.val / 8 % 4) + r.val) k.val := by
  have hN : t.val < 256 := lt_of_lt_of_eq t.isLt N_0
  obtain ⟨e0, e1, e2⟩ := idx_tokens t
  have hu : u.val = 0 := by omega
  show V m c main_v0 (((cfg0.win 0).blk t).view.emb (ix3 u r k)) = _
  rw [V_tokens]
  refine Eq.trans ?_ (rd3_of_lt (aX m c) (a := t.val / 32) (b := 128 * (t.val / 8 % 4) + r.val) (c := k.val) (by omega) (by omega) k.isLt)
  refine congrArg (aX m c) (funext fun a => Fin.ext ?_)
  match a with
  | ⟨0, _⟩ => show win0_0.index t (0 : Fin 3) * 1 + 1 * u.val = t.val / 32; omega
  | ⟨1, _⟩ => show win0_0.index t (1 : Fin 3) * 128 + 1 * r.val = 128 * (t.val / 8 % 4) + r.val; omega
  | ⟨2, _⟩ => show win0_0.index t (2 : Fin 3) * 7168 + 1 * k.val = k.val; omega

/-- The first up-projection's block of point `t`: rows `256 · (t % 8) …` of expert `t / 32`. -/
theorem up1_blk (c : Dev nD) (t : Fin cfg0.N) (u : Fin 1) (f : Fin 256) (k : Fin 7168) :
    iblk m c 1 t (ix3 u f k) = rd3 (aW1 m c) (t.val / 32) (256 * (t.val % 8) + f.val) k.val := by
  have hN : t.val < 256 := lt_of_lt_of_eq t.isLt N_0
  obtain ⟨e0, e1, e2⟩ := idx_up1 t
  have hu : u.val = 0 := by omega
  show V m c main_v1 (((cfg0.win 1).blk t).view.emb (ix3 u f k)) = _
  rw [V_up1]
  refine Eq.trans ?_ (rd3_of_lt (aW1 m c) (a := t.val / 32) (b := 256 * (t.val % 8) + f.val) (c := k.val) (by omega) (by omega) k.isLt)
  refine congrArg (aW1 m c) (funext fun a => Fin.ext ?_)
  match a with
  | ⟨0, _⟩ => show win0_1.index t (0 : Fin 3) * 1 + 1 * u.val = t.val / 32; omega
  | ⟨1, _⟩ => show win0_1.index t (1 : Fin 3) * 256 + 1 * f.val = 256 * (t.val % 8) + f.val; omega
  | ⟨2, _⟩ => show win0_1.index t (2 : Fin 3) * 7168 + 1 * k.val = k.val; omega

/-- The second up-projection's block of point `t`. -/
theorem up3_blk (c : Dev nD) (t : Fin cfg0.N) (u : Fin 1) (f : Fin 256) (k : Fin 7168) :
    iblk m c 2 t (ix3 u f k) = rd3 (aW3 m c) (t.val / 32) (256 * (t.val % 8) + f.val) k.val := by
  have hN : t.val < 256 := lt_of_lt_of_eq t.isLt N_0
  obtain ⟨e0, e1, e2⟩ := idx_up3 t
  have hu : u.val = 0 := by omega
  show V m c main_v2 (((cfg0.win 2).blk t).view.emb (ix3 u f k)) = _
  rw [V_up3]
  refine Eq.trans ?_ (rd3_of_lt (aW3 m c) (a := t.val / 32) (b := 256 * (t.val % 8) + f.val) (c := k.val) (by omega) (by omega) k.isLt)
  refine congrArg (aW3 m c) (funext fun a => Fin.ext ?_)
  match a with
  | ⟨0, _⟩ => show win0_2.index t (0 : Fin 3) * 1 + 1 * u.val = t.val / 32; omega
  | ⟨1, _⟩ => show win0_2.index t (1 : Fin 3) * 256 + 1 * f.val = 256 * (t.val % 8) + f.val; omega
  | ⟨2, _⟩ => show win0_2.index t (2 : Fin 3) * 7168 + 1 * k.val = k.val; omega

/-- The down-projection's block of point `t`: columns `256 · (t % 8) …` of every row of expert `t / 32`. -/
theorem down_blk (c : Dev nD) (t : Fin cfg0.N) (u : Fin 1) (d : Fin 7168) (f : Fin 256) :
    iblk m c 3 t (ix3 u d f) = rd3 (aW2 m c) (t.val / 32) d.val (256 * (t.val % 8) + f.val) := by
  have hN : t.val < 256 := lt_of_lt_of_eq t.isLt N_0
  obtain ⟨e0, e1, e2⟩ := idx_down t
  have hu : u.val = 0 := by omega
  show V m c main_v3 (((cfg0.win 3).blk t).view.emb (ix3 u d f)) = _
  rw [V_down]
  refine Eq.trans ?_ (rd3_of_lt (aW2 m c) (a := t.val / 32) (b := d.val) (c := 256 * (t.val % 8) + f.val) (by omega) d.isLt (by omega))
  refine congrArg (aW2 m c) (funext fun a => Fin.ext ?_)
  match a with
  | ⟨0, _⟩ => show win0_3.index t (0 : Fin 3) * 1 + 1 * u.val = t.val / 32; omega
  | ⟨1, _⟩ => show win0_3.index t (1 : Fin 3) * 7168 + 1 * d.val = d.val; omega
  | ⟨2, _⟩ => show win0_3.index t (2 : Fin 3) * 256 + 1 * f.val = 256 * (t.val % 8) + f.val; omega

/-- The first bias's block of point `t`: entries `256 · (t % 8) …` of expert `t / 32`. -/
theorem bias1_blk (c : Dev nD) (t : Fin cfg0.N) (u v : Fin 1) (f : Fin 256) :
    iblk m c 4 t (ix3 u v f) = rd2 (aB1 m c) (t.val / 32) (256 * (t.val % 8) + f.val) := by
  have hN : t.val < 256 := lt_of_lt_of_eq t.isLt N_0
  obtain ⟨e0, e1, e2⟩ := idx_bias1 t
  have hu : u.val = 0 := by omega
  have hv : v.val = 0 := by omega
  show V m c main_v4 (((cfg0.win 4).blk t).view.emb (ix3 u v f)) = _
  rw [V_bias1]
  have hidx : ((cfg0.win 4).blk t).view.emb (ix3 u v f)
      = ix3 (⟨t.val / 32, by omega⟩ : Fin 8) (0 : Fin 1) (⟨256 * (t.val % 8) + f.val, by omega⟩ : Fin 2048) := funext fun a => Fin.ext (by
    match a with
    | ⟨0, _⟩ => show win0_4.index t (0 : Fin 3) * 1 + 1 * u.val = t.val / 32; omega
    | ⟨1, _⟩ => show win0_4.index t (1 : Fin 3) * 1 + 1 * v.val = 0; omega
    | ⟨2, _⟩ => show win0_4.index t (2 : Fin 3) * 256 + 1 * f.val = 256 * (t.val % 8) + f.val; omega)
  rw [hidx, shapeCast_ab_a1b_apply]
  exact rd2_of_lt (aB1 m c) _ _

/-- The second bias's block of point `t`. -/
theorem bias3_blk (c : Dev nD) (t : Fin cfg0.N) (u v : Fin 1) (f : Fin 256) :
    iblk m c 5 t (ix3 u v f) = rd2 (aB3 m c) (t.val / 32) (256 * (t.val % 8) + f.val) := by
  have hN : t.val < 256 := lt_of_lt_of_eq t.isLt N_0
  obtain ⟨e0, e1, e2⟩ := idx_bias3 t
  have hu : u.val = 0 := by omega
  have hv : v.val = 0 := by omega
  show V m c main_v5 (((cfg0.win 5).blk t).view.emb (ix3 u v f)) = _
  rw [V_bias3]
  have hidx : ((cfg0.win 5).blk t).view.emb (ix3 u v f)
      = ix3 (⟨t.val / 32, by omega⟩ : Fin 8) (0 : Fin 1) (⟨256 * (t.val % 8) + f.val, by omega⟩ : Fin 2048) := funext fun a => Fin.ext (by
    match a with
    | ⟨0, _⟩ => show win0_5.index t (0 : Fin 3) * 1 + 1 * u.val = t.val / 32; omega
    | ⟨1, _⟩ => show win0_5.index t (1 : Fin 3) * 1 + 1 * v.val = 0; omega
    | ⟨2, _⟩ => show win0_5.index t (2 : Fin 3) * 256 + 1 * f.val = 256 * (t.val % 8) + f.val; omega)
  rw [hidx, shapeCast_ab_a1b_apply]
  exact rd2_of_lt (aB3 m c) _ _

/-- The output bias's block of point `t`: the whole row of expert `t / 32`. -/
theorem bias2_blk (c : Dev nD) (t : Fin cfg0.N) (u v : Fin 1) (d : Fin 7168) :
    iblk m c 6 t (ix3 u v d) = rd2 (aB2 m c) (t.val / 32) d.val := by
  have hN : t.val < 256 := lt_of_lt_of_eq t.isLt N_0
  obtain ⟨e0, e1, e2⟩ := idx_bias2 t
  have hu : u.val = 0 := by omega
  have hv : v.val = 0 := by omega
  show V m c main_v6 (((cfg0.win 6).blk t).view.emb (ix3 u v d)) = _
  rw [V_bias2]
  have hidx : ((cfg0.win 6).blk t).view.emb (ix3 u v d)
      = ix3 (⟨t.val / 32, by omega⟩ : Fin 8) (0 : Fin 1) d := funext fun a => Fin.ext (by
    match a with
    | ⟨0, _⟩ => show win0_6.index t (0 : Fin 3) * 1 + 1 * u.val = t.val / 32; omega
    | ⟨1, _⟩ => show win0_6.index t (1 : Fin 3) * 1 + 1 * v.val = 0; omega
    | ⟨2, _⟩ => show win0_6.index t (2 : Fin 3) * 7168 + 1 * d.val = d.val; omega)
  rw [hidx, shapeCast_ab_a1b_apply]
  exact rd2_of_lt (aB2 m c) _ d.isLt

/-! ## A point's term -/

/-- What point `t` adds at row `r`, feature `d` of its output block: the sum, over the point's 256 hidden units, of the
    hidden values of token `128 · ((t / 8) % 4) + r` of expert `t / 32` times the down-projection's entries. -/
theorem term_at (c : Dev nD) (t : Fin cfg0.N) (r : Fin 128) (d : Fin 7168) :
    blkTerm (iblk m c 0 t) (iblk m c 1 t) (iblk m c 2 t) (iblk m c 3 t) (iblk m c 4 t) (iblk m c 5 t) r d
      = ∑ f : Fin 256, hiddenN (aX m c) (aW1 m c) (aB1 m c) (aW3 m c) (aB3 m c) (t.val / 32) (128 * (t.val / 8 % 4) + r.val) (256 * (t.val % 8) + f.val)
          * rd3 (aW2 m c) (t.val / 32) d.val (256 * (t.val % 8) + f.val) := by
  unfold blkTerm preBlk hiddenN preN
  simp only [tokens_blk, up1_blk, up3_blk, down_blk, bias1_blk, bias3_blk]

end Cert.GatedFfn.Points

end
-- ==== Proof.KernelValue.lean ====
/-
  The kernel computes `out`.

  The output block of expert `e` and token block `b` is produced by the run of the eight consecutive grid points
  `8 · (4 e + b) + s`, `s = 0 … 7`: the first resets the block to zero, every point adds its term — the sum over its 256
  hidden units — and the last also adds the output bias and writes the block back. So at token `t` and feature `d` the
  array ends at `((0 + term_0) + … + term_7) + bias`, and the eight terms are the eight consecutive blocks of the one sum
  over all 2048 hidden units. Only the associativity and commutativity of `+` on the extended reals is used.
-/
import proofs.«104300_j73126113181994_2_alg».proof.Proof.Gen.KernelIdeal.Value
import proofs.«104300_j73126113181994_2_alg».proof.Proof.Points

noncomputable section

namespace Cert.GatedFfn.Kernel

open Cert.KernelIdeal Cert.KernelIdeal.Gen Cert.KernelIdeal.Value Idealize.ShloMosaic Idealize.ShloMosaic.TcCoe
open Idealize.ShloMosaic.ValueIdx Idealize.SL.Sem Cert.GatedFfn Cert.GatedFfn.Block Cert.GatedFfn.Points
open scoped BigOperators

variable (m : (ℓ : Loc nD τ sig) → Buf (Elt Ideal) ℓ)

/-- What grid point `n` adds at row `r`, feature `d` of its output block (zero past the grid, never reached). -/
def pointTerm (c : Dev nD) (n : ℕ) (r : Fin 128) (d : Fin 7168) : EReal :=
  if h : n < cfg0.N then
    blkTerm (iblk m c 0 ⟨n, h⟩) (iblk m c 1 ⟨n, h⟩) (iblk m c 2 ⟨n, h⟩) (iblk m c 3 ⟨n, h⟩) (iblk m c 4 ⟨n, h⟩) (iblk m c 5 ⟨n, h⟩) r d
  else 0

/-- The output bias's row as point `n` holds it. -/
def biasRow (c : Dev nD) (n : ℕ) (h : n < cfg0.N) : FVec Ideal S1x1x7168 .f32 := iblk m c 6 ⟨n, h⟩

/-- A run's first point leaves its own term: it adds to the zero block. -/
theorem reset_apply (c : Dev nD) (n : ℕ) (h : n < cfg0.N) (r : Fin 128) (d : Fin 7168) :
    reset7 m c n h (ix3 0 r d) = pointTerm m c n r d := by
  unfold reset7 pointTerm
  rw [dif_pos h]
  refine (pay1_apply _ 0 r d).trans ?_
  refine (pay4_apply (iblk m c 0 ⟨n, h⟩) (iblk m c 1 ⟨n, h⟩) (iblk m c 2 ⟨n, h⟩) (iblk m c 3 ⟨n, h⟩) (iblk m c 4 ⟨n, h⟩) (iblk m c 5 ⟨n, h⟩) (k0_pay3 (F := Ideal)) r d).trans ?_
  rw [pay3_apply, zero_add]

/-- A middle point adds its term to what the point before left. -/
theorem step_mid (c : Dev nD) (n : ℕ) (h : n < cfg0.N) (acc : FVec Ideal S1x128x7168 .f32) (r : Fin 128) (d : Fin 7168)
    (h0 : ¬n % 8 = 0) (h7 : ¬n % 8 = 7) :
    step7 m c n h acc (ix3 0 r d) = acc (ix3 0 r d) + pointTerm m c n r d := by
  unfold step7 pointTerm
  rw [if_pos ⟨h0, h7⟩, dif_pos h]
  refine (pay1_apply _ 0 r d).trans ?_
  exact pay4_apply (iblk m c 0 ⟨n, h⟩) (iblk m c 1 ⟨n, h⟩) (iblk m c 2 ⟨n, h⟩) (iblk m c 3 ⟨n, h⟩) (iblk m c 4 ⟨n, h⟩) (iblk m c 5 ⟨n, h⟩) acc r d

/-- The last point of a run adds its term and then the output bias. -/
theorem step_last (c : Dev nD) (n : ℕ) (h : n < cfg0.N) (acc : FVec Ideal S1x128x7168 .f32) (r : Fin 128) (d : Fin 7168)
    (h7 : n % 8 = 7) :
    step7 m c n h acc (ix3 0 r d) = (acc (ix3 0 r d) + pointTerm m c n r d) + biasRow m c n h (ix3 0 0 d) := by
  unfold step7 pointTerm biasRow
  rw [if_neg (fun hh => hh.2 h7), if_pos ⟨by omega, h7⟩, dif_pos h]
  refine (pay2_apply _ (iblk m c 6 ⟨n, h⟩) 0 r d).trans ?_
  refine congrArg (· + (iblk m c 6 ⟨n, h⟩ : FVec Ideal S1x1x7168 .f32) (ix3 0 0 d)) ?_
  refine (pay1_apply _ 0 r d).trans ?_
  exact pay4_apply (iblk m c 0 ⟨n, h⟩) (iblk m c 1 ⟨n, h⟩) (iblk m c 2 ⟨n, h⟩) (iblk m c 3 ⟨n, h⟩) (iblk m c 4 ⟨n, h⟩) (iblk m c 5 ⟨n, h⟩) acc r d

/-- After the first `j + 1 ≤ 7` points of run `q` the block holds the sum of their terms. -/
theorem fold_mid (c : Dev nD) (q : ℕ) : ∀ (j : ℕ) (hj : j ≤ 6) (h : 8 * q + j < cfg0.N) (r : Fin 128) (d : Fin 7168),
    Pipeline.accAt (reset7 m c) (step7 m c) (8 * q) j h (ix3 0 r d) = ∑ s ∈ Finset.range (j + 1), pointTerm m c (8 * q + s) r d
  | 0, _, h, r, d => by
    rw [Pipeline.accAt_zero, Finset.sum_range_one]
    exact reset_apply m c (8 * q) h r d
  | j + 1, hj, h, r, d => by
    rw [Pipeline.accAt_succ, step_mid m c (8 * q + (j + 1)) h _ r d (by omega) (by omega),
      fold_mid c q j (by omega) (Nat.lt_of_succ_lt h) r d, Finset.sum_range_succ _ (j + 1)]

/-- After the whole run the block holds the sum of the eight terms plus the output bias. -/
theorem fold_last (c : Dev nD) (q : ℕ) (h : 8 * q + 7 < cfg0.N) (r : Fin 128) (d : Fin 7168) :
    Pipeline.accAt (reset7 m c) (step7 m c) (8 * q) 7 h (ix3 0 r d)
      = (∑ s ∈ Finset.range 8, pointTerm m c (8 * q + s) r d) + biasRow m c (8 * q + 7) h (ix3 0 0 d) := by
  refine (congrFun (Pipeline.accAt_succ (reset7 m c) (step7 m c) (8 * q) 6 h) (ix3 0 r d)).trans ?_
  rw [step_last m c (8 * q + (6 + 1)) h _ r d (by omega), fold_mid m c q 6 (le_refl 6) (Nat.lt_of_succ_lt h) r d,
    Finset.sum_range_succ _ 7]

/-- The array the kernel leaves is `out` of the arguments. -/
theorem result_eq (c : Dev nD) :
    G7 m c = out (aX m c) (aW1 m c) (aB1 m c) (aW3 m c) (aB3 m c) (aW2 m c) (aB2 m c) := by
  funext i
  obtain ⟨e, tk, d, rfl⟩ : ∃ (e : Fin 8) (tk : Fin 512) (d : Fin 7168), i = ix3 e tk d := ⟨i 0, i 1, i 2, eq_ix3 i⟩
  rw [out_nat]
  have he := e.isLt
  have htk := tk.isLt
  have hd := d.isLt
  have hq : run7Of (ix3 e tk d) = 4 * e.val + tk.val / 128 := by
    show 4 * (e.val / 1 - 0) + 1 * (tk.val / 128 - 0) + 1 * (d.val / 7168 - 0) = _
    omega
  have hlt : 8 * (4 * e.val + tk.val / 128) + 7 < cfg0.N := lt_of_lt_of_eq (by omega) N_0.symm
  have hloc : loc7Of (ix3 e tk d) = ix3 (0 : Fin 1) (⟨tk.val % 128, by omega⟩ : Fin 128) d := funext fun a => Fin.ext (by
    match a with
    | ⟨0, _⟩ => show e.val % 1 = 0; omega
    | ⟨1, _⟩ => rfl
    | ⟨2, _⟩ => show d.val % 7168 = d.val; omega)
  have same : ∀ (b b' : ℕ) (hb : b + 7 < cfg0.N) (hb' : b' + 7 < cfg0.N), b = b' →
      Pipeline.accAt (reset7 m c) (step7 m c) b 7 hb = Pipeline.accAt (reset7 m c) (step7 m c) b' 7 hb' := by
    intro b b' hb hb' hbb; subst hbb; rfl
  unfold G7
  rw [dif_pos (by rw [hq]; exact hlt), same _ (8 * (4 * e.val + tk.val / 128)) _ hlt (by rw [hq]), hloc, fold_last]
  refine congrArg₂ (· + ·) ?_ ?_
  · refine Eq.trans ?_ (sum_blocks (fun F => hiddenN (aX m c) (aW1 m c) (aB1 m c) (aW3 m c) (aB3 m c) e.val tk.val F
        * rd3 (aW2 m c) e.val d.val F)).symm
    rw [Finset.sum_range]
    refine Finset.sum_congr rfl fun s _ => ?_
    have hs := s.isLt
    have hn : 8 * (4 * e.val + tk.val / 128) + s.val < cfg0.N := lt_of_lt_of_eq (by omega) N_0.symm
    have h1 : (8 * (4 * e.val + tk.val / 128) + s.val) / 32 = e.val := by omega
    have h2 : 128 * ((8 * (4 * e.val + tk.val / 128) + s.val) / 8 % 4) + tk.val % 128 = tk.val := by omega
    have h3 : (8 * (4 * e.val + tk.val / 128) + s.val) % 8 = s.val := by omega
    unfold pointTerm
    rw [dif_pos hn, term_at m c ⟨_, hn⟩ _ d]
    simp only [Fin.val_mk, h1, h2, h3]
  · have hb : (8 * (4 * e.val + tk.val / 128) + 7) / 32 = e.val := by omega
    unfold biasRow
    rw [bias2_blk]
    simp only [Fin.val_mk, hb]

end Cert.GatedFfn.Kernel

end
-- ==== Proof.RefValue.lean ====
/-
  The reference computes `out`.

  The reference is two batched products of the tokens with the up-projections (each contracting the 7168 features), the
  biases broadcast over the tokens, the gate `silu(h1) · h3` with the logistic spelt `1 / (1 + exp(-h1))`, one batched
  product with the down-projection contracting all 2048 hidden units, and the output bias broadcast over the tokens. Read
  at an index, stage by stage, it is `out` as written: on the extended reals the quotient `1 / (1 + exp(-h))` is the
  logistic function by definition.
-/
import proofs.«104300_j73126113181994_2_alg».proof.Proof.Gen.ReferenceIdeal.Read
import proofs.«104300_j73126113181994_2_alg».proof.Proof.Spec
import Idealize.ShloMosaic.Lib.IdealHost

noncomputable section

namespace Cert.GatedFfn.Ref

open Cert.ReferenceIdeal Cert.ReferenceIdeal.Read Idealize.ShloMosaic Idealize.ShloMosaic.ValueIdx
open scoped BigOperators

variable (x0 : S8x512x7168.Idx → EReal) (x1 : S8x2048x7168.Idx → EReal) (x2 : S8x2048.Idx → EReal)
  (x3 : S8x2048x7168.Idx → EReal) (x4 : S8x2048.Idx → EReal) (x5 : S8x7168x2048.Idx → EReal) (x6 : S8x7168.Idx → EReal)

/-- The first biased product is the first pre-activation. -/
theorem v3_apply (e : Fin 8) (t : Fin 512) (f : Fin 2048) :
    val_main_v3 (F := Ideal) x0 x1 x2 (ix3 e t f) = pre x0 x1 x2 e t f := by
  rw [val_main_v3_apply, val_main_v0_apply, val_main_v2_apply, val_main_v1_apply]
  have el : ∀ k, lidx_main_v0 (ix3 e t f) k = ix3 e t k := fun k => funext fun a => by
    match a with | ⟨0, _⟩ => rfl | ⟨1, _⟩ => rfl | ⟨2, _⟩ => rfl
  have er : ∀ k, ridx_main_v0 (ix3 e t f) k = ix3 e f k := fun k => funext fun a => by
    match a with | ⟨0, _⟩ => rfl | ⟨1, _⟩ => rfl | ⟨2, _⟩ => rfl
  have eb : idx_main_v1 (idx_main_v2 (ix3 e t f)) = ix2 e f := funext fun a => by
    match a with | ⟨0, _⟩ => rfl | ⟨1, _⟩ => rfl
  simp only [el, er, eb]
  rfl

/-- The second biased product is the second pre-activation. -/
theorem v7_apply (e : Fin 8) (t : Fin 512) (f : Fin 2048) :
    val_main_v7 (F := Ideal) x0 x3 x4 (ix3 e t f) = pre x0 x3 x4 e t f := by
  rw [val_main_v7_apply, val_main_v4_apply, val_main_v6_apply, val_main_v5_apply]
  have el : ∀ k, lidx_main_v4 (ix3 e t f) k = ix3 e t k := fun k => funext fun a => by
    match a with | ⟨0, _⟩ => rfl | ⟨1, _⟩ => rfl | ⟨2, _⟩ => rfl
  have er : ∀ k, ridx_main_v4 (ix3 e t f) k = ix3 e f k := fun k => funext fun a => by
    match a with | ⟨0, _⟩ => rfl | ⟨1, _⟩ => rfl | ⟨2, _⟩ => rfl
  have eb : idx_main_v5 (idx_main_v6 (ix3 e t f)) = ix2 e f := funext fun a => by
    match a with | ⟨0, _⟩ => rfl | ⟨1, _⟩ => rfl
  simp only [el, er, eb]
  rfl

/-- The gated product is the hidden value: the host's `1 / (1 + exp(-h))` is the logistic function. -/
theorem v9_apply (e : Fin 8) (t : Fin 512) (f : Fin 2048) :
    val_main_v9 (F := Ideal) x0 x1 x2 x3 x4 (ix3 e t f) = hidden x0 x1 x2 x3 x4 e t f := by
  rw [val_main_v9_apply, val_main_v8_apply, val_main_call0_v5_apply, val_main_call0_v4_apply, val_main_call0_cst_0_apply,
    val_main_call0_v3_apply, val_main_call0_v2_apply, val_main_call0_cst_apply, val_main_call0_v1_apply,
    val_main_call0_v0_apply, v3_apply, v7_apply]
  simp only [Ideal.ofBits_def, Ideal.ofBits_one_f32]
  rfl

/-- The reference's result, stage by stage, is `out`. -/
theorem result_eq : val_main_v13 (F := Ideal) x0 x1 x2 x3 x4 x5 x6 = out x0 x1 x2 x3 x4 x5 x6 := by
  funext i
  obtain ⟨e, t, d, rfl⟩ : ∃ (e : Fin 8) (t : Fin 512) (d : Fin 7168), i = ix3 e t d := ⟨i 0, i 1, i 2, eq_ix3 i⟩
  rw [val_main_v13_apply, val_main_v10_apply, val_main_v12_apply, val_main_v11_apply]
  have el : ∀ k, lidx_main_v10 (ix3 e t d) k = ix3 e t k := fun k => funext fun a => by
    match a with | ⟨0, _⟩ => rfl | ⟨1, _⟩ => rfl | ⟨2, _⟩ => rfl
  have er : ∀ k, ridx_main_v10 (ix3 e t d) k = ix3 e d k := fun k => funext fun a => by
    match a with | ⟨0, _⟩ => rfl | ⟨1, _⟩ => rfl | ⟨2, _⟩ => rfl
  have eb : idx_main_v11 (idx_main_v12 (ix3 e t d)) = ix2 e d := funext fun a => by
    match a with | ⟨0, _⟩ => rfl | ⟨1, _⟩ => rfl
  simp only [el, er, eb, v9_apply]
  rfl

end Cert.GatedFfn.Ref

end
-- ==== Proof.lean ====
/-
  A batched gated feed-forward layer, computed block by block, against the same layer computed whole.

  Eight experts each map 512 tokens of 7168 features through two up-projections to 2048 hidden units (with biases), gate
  them, `silu(h1) · h3`, and map the hidden row back to 7168 features through a down-projection (with bias). The kernel
  walks a grid of expert × token block (128 rows) × hidden block (256 units): at each point it forms the 128 × 256 block of
  hidden values and adds that block's contribution to the output block, which it zeroes at the first hidden block and
  completes with the output bias at the last. The reference forms all 2048 hidden units and contracts them at once.

  On the extended reals both are the function `Cert.GatedFfn.out` of the arguments (Proof/Spec.lean): the reference stage by
  stage (Proof/RefValue.lean), the kernel because its eight partial sums over 256 units are the eight consecutive blocks of
  the one sum over 2048 units (Proof/KernelBlock.lean, Proof/Points.lean, Proof/KernelValue.lean) — a regrouping of a sum,
  which needs only that `+` is commutative and associative; the changes of float format on the way into the products are
  the identity there, and the logistic function is the quotient `1 / (1 + exp(-h))` by definition. The precondition is
  never opened. The three frames are the programs' runs with the results forgotten, and the idealization rewrote nothing.
-/
import proofs.«104300_j73126113181994_2_alg».proof.Defs
import proofs.«104300_j73126113181994_2_alg».proof.Proof.Gen.Kernel.Frame
import proofs.«104300_j73126113181994_2_alg».proof.Proof.Gen.KernelIdeal.Value
import proofs.«104300_j73126113181994_2_alg».proof.Proof.Gen.Pre_finite_inputs
import proofs.«104300_j73126113181994_2_alg».proof.Proof.Gen.ReferenceIdeal.Run
import proofs.«104300_j73126113181994_2_alg».proof.Proof.Gen.ReferenceIdeal.Read
import proofs.«104300_j73126113181994_2_alg».proof.Proof.KernelValue
import proofs.«104300_j73126113181994_2_alg».proof.Proof.RefValue
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both runs end with the result array at `out` of the arguments, which agree. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v13_eq]
  refine (Cert.GatedFfn.Ref.result_eq _ _ _ _ _ _ _).trans ?_
  refine Eq.trans ?_ (Cert.GatedFfn.Kernel.result_eq m c).symm
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
